-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S5000x1 : Shape := ⟨2, ![5000, 1]⟩
abbrev S5000 : Shape := ⟨1, ![5000]⟩
abbrev S50000 : Shape := ⟨1, ![50000]⟩

abbrev nBuf : Space → Nat
  | .hbm => 65
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S_, .f32⟩
  | .hbm, ⟨18, _⟩ => ⟨S800000x1, .f32⟩
  | .hbm, ⟨19, _⟩ => ⟨S_, .f32⟩
  | .hbm, ⟨20, _⟩ => ⟨S50000x1, .f32⟩
  | .hbm, ⟨21, _⟩ => ⟨S800000x1, .i32⟩
  | .hbm, ⟨22, _⟩ => ⟨S50000x1, .f32⟩
  | .hbm, ⟨23, _⟩ => ⟨S_, .f32⟩
  | .hbm, ⟨24, _⟩ => ⟨S50000x1, .f32⟩
  | .hbm, ⟨25, _⟩ => ⟨S50000x1, .f32⟩
  | .hbm, ⟨26, _⟩ => ⟨S_, .f32⟩
  | .hbm, ⟨27, _⟩ => ⟨S50000x1, .f32⟩
  | .hbm, ⟨28, _⟩ => ⟨S50000x1, .f32⟩
  | .hbm, ⟨29, _⟩ => ⟨S50000x128, .bf16⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .bf16⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x128, .f32⟩
  | .hbm, ⟨45, _⟩ => ⟨S50000x128, .bf16⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .bf16⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x1, .f32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S5000x1, .f32⟩
  | .local _ .vmem, ⟨22, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  transposes_S128x1_S1x128_1_0 : S128x1.Transposes [1, 0] S1x128
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bitsLt_bf16_f32 : FTy.bits .bf16 < FTy.bits .f32
  bcast_S_S800000 : S_.BroadcastsInDim S800000 (![] : Fin 0 → Fin S800000.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  shapeCasts_S50000x1_S50000 : S50000x1.ShapeCasts S50000
  shapeCasts_S1_S_ : S1.ShapeCasts S_
  bcast_S_S50000 : S_.BroadcastsInDim S50000 (![] : Fin 0 → Fin S50000.rank)
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S50000x1.size a
  hwx1_7 : ∀ i : grid1.Coords, EltTy.bits .f32 = 32 ∨ (Rect.block (s := S50000x1) S5000x1.size (cc1_transform_7 i) (hinb1_7 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x1 : Shape := ⟨2, ![1, 1]⟩
abbrev S50000 : Shape := ⟨1, ![50000]⟩

abbrev nBuf : Space → Nat
  | .hbm => 85
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000x1, .f32⟩
  | .hbm, ⟨29, _⟩ => ⟨S_, .f32⟩
  | .hbm, ⟨30, _⟩ => ⟨S50000x1, .f32⟩
  | .hbm, ⟨31, _⟩ => ⟨S800000x1, .i32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S_, .f32⟩
  | .hbm, ⟨61, _⟩ => ⟨S800000x1, .f32⟩
  | .hbm, ⟨62, _⟩ => ⟨S_, .f32⟩
  | .hbm, ⟨63, _⟩ => ⟨S50000x1, .f32⟩
  | .hbm, ⟨64, _⟩ => ⟨S800000x1, .i32⟩
  | .hbm, ⟨65, _⟩ => ⟨S50000x1, .f32⟩
  | .hbm, ⟨66, _⟩ => ⟨S_, .f32⟩
  | .hbm, ⟨67, _⟩ => ⟨S50000x1, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S50000x1, .f32⟩
  | .hbm, ⟨81, _⟩ => ⟨S1x1, .f32⟩
  | .hbm, ⟨82, _⟩ => ⟨S50000x1, .f32⟩
  | .hbm, ⟨83, _⟩ => ⟨S50000x1, .f32⟩
  | .hbm, ⟨84, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_cst : Ref sig .tc := ⟨.hbm, 77, rfl⟩
abbrev main_call1_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Spec.lean ====
/-
  The arithmetic of the two-layer mean-aggregation network, stated once over plain index functions on the
  extended reals, for both programs to be compared against.

  A layer maps a row of neighbour sums `s`, the reciprocal neighbour count `iv` of that row and the row's own
  features `xr` to `max ((Σ_k (s k · iv) · Wl (k, q)) + b q + Σ_k xr k · Wr (k, q)) 0` at every output lane `q`:
  a linear map of the neighbour mean, a bias, a linear map of the row itself, and a clamp at zero.  The network's
  last step contracts a layer's row with a column of output weights and adds a scalar bias.

  On the extended reals a quotient by a nonzero `c` is the product with the quotient `1 / c` (both are the product
  with `c⁻¹`), and a count clamped below by one is never zero: this is the one law that joins a program dividing
  the sums by the clamped count to a program multiplying them by its reciprocal.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- One row of a layer at output lane `q`: the neighbour sums `s` scaled by `iv` and contracted with `Wl`, plus the
    bias, plus the row's own features contracted with `Wr`, clamped below at zero. -/
def layerRow (s : Fin 128 → EReal) (iv : EReal) (xr : Fin 128 → EReal)
    (Wl : (⟨2, ![128, 128]⟩ : Shape).Idx → EReal) (b : Fin 128 → EReal)
    (Wr : (⟨2, ![128, 128]⟩ : Shape).Idx → EReal) (q : Fin 128) : EReal :=
  max (((∑ k : Fin 128, (s k * iv) * Wl (ix2 k q)) + b q) + ∑ k : Fin 128, xr k * Wr (ix2 k q)) 0

/-- A whole layer over the 50000 rows: row `r` of the result is `layerRow` of row `r` of the sums, the scale of
    row `r` and row `r` of the features. -/
def layer (sums : (⟨2, ![50000, 128]⟩ : Shape).Idx → EReal) (iv : Fin 50000 → EReal)
    (x : (⟨2, ![50000, 128]⟩ : Shape).Idx → EReal) (Wl : (⟨2, ![128, 128]⟩ : Shape).Idx → EReal) (b : Fin 128 → EReal)
    (Wr : (⟨2, ![128, 128]⟩ : Shape).Idx → EReal) : (⟨2, ![50000, 128]⟩ : Shape).Idx → EReal :=
  fun i => layerRow (fun k => sums (ix2 (i 0) k)) (iv (i 0)) (fun k => x (ix2 (i 0) k)) Wl b Wr (i 1)

/-- A layer followed by the contraction of each of its rows with the output weights `wo`: one number per row. -/
def head (sums : (⟨2, ![50000, 128]⟩ : Shape).Idx → EReal) (iv : Fin 50000 → EReal)
    (x : (⟨2, ![50000, 128]⟩ : Shape).Idx → EReal) (Wl : (⟨2, ![128, 128]⟩ : Shape).Idx → EReal) (b : Fin 128 → EReal)
    (Wr : (⟨2, ![128, 128]⟩ : Shape).Idx → EReal) (wo : Fin 128 → EReal) : (⟨2, ![50000, 1]⟩ : Shape).Idx → EReal :=
  fun i => ∑ q : Fin 128, layerRow (fun k => sums (ix2 (i 0) k)) (iv (i 0)) (fun k => x (ix2 (i 0) k)) Wl b Wr q * wo q

/-- The network's result: the per-row number plus the output bias. -/
def out (hd : (⟨2, ![50000, 1]⟩ : Shape).Idx → EReal) (bo : EReal) : (⟨1, ![50000]⟩ : Shape).Idx → EReal :=
  fun j => hd (ix2 (j 0) 0) + bo

/-- The f32 word of 1.0 denotes the extended real one. -/
theorem ofBits_one_f32 : Ideal.ofBits .f32 0x3F800000#32 = 1 := IdealRules.sign_bit.ideal_onePat .f32

/-- A quotient by a nonzero extended real is the product with the reciprocal taken by the same quotient. -/
theorem mul_div_one (a c : EReal) (hc : c ≠ 0) : a * Ideal.div 1 c = Ideal.div a c := by
  unfold Ideal.div
  rw [if_neg hc, if_neg hc, one_mul]

/-- A value clamped below by one is not zero. -/
theorem max_one_ne_zero (a : EReal) : max a 1 ≠ 0 :=
  (lt_of_lt_of_le zero_lt_one (le_max_right a 1)).ne'

end Cert.Sage

end
-- ==== Proof.Payload.lean ====
/-
  The two kernel bodies read at an index.

  Each body computes, from the blocks it loads, one row-block of a layer of the mean-aggregation network: the block
  of neighbour sums scaled row by row by the reciprocal counts, contracted with the left weights; plus the bias row;
  plus the block of features contracted with the right weights; clamped below at zero.  The second body then
  contracts each row of that result with the row of output weights.

  On the extended reals the narrowing to bf16 is the identity, a matrix product into a zero accumulator is the plain
  sum over the contracted axis, and a broadcast reads its operand at the coordinate that survives, so at row `p`
  and lane `q` the first body's value is `Cert.Sage.layerRow` of row `p` of its operands at lane `q`, and the second
  body's value at row `p` is the sum over the lanes of that row times the output weights.
-/
import proofs.«169117_j77171972374887_2_alg».proof.Proof.Gen.KernelIdeal.Skeleton
import proofs.«169117_j77171972374887_2_alg».proof.Proof.Spec
import Idealize.ShloMosaic.PureOps.Ideal.Laws
import Idealize.ShloMosaic.Lib.ValueIdx
import Idealize.ShloMosaic.Lib.Pipeline.Value

noncomputable section

namespace Cert.Sage.Pay

open Cert.KernelIdeal Cert.KernelIdeal.Gen Idealize.ShloMosaic Idealize.ShloMosaic.ValueIdx

/-- The left operand's index of the product at output index `i` and contraction index `c` keeps the output's row. -/
theorem lhsIdx_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- Its lane is the contraction coordinate. -/
theorem lhsIdx_lane (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

/-- The right operand's row is the contraction coordinate. -/
theorem rhsIdx_row (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

/-- Its lane is the output's lane. -/
theorem rhsIdx_lane (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into a zero accumulator, at row `p` and lane `q`: the sum over `k` of the left operand at
    `(p, k)` times the right operand at `(k, q)`. -/
theorem matmul_at {φ₁ φ₂ : FTy} (lhs : FVec Ideal S5000x128 φ₁) (rhs : FVec Ideal S128x128 φ₂) (p : Fin 5000) (q : Fin 128) :
    FloatOps.matmul dot_S5000x128_S128x128_S5000x128_1_0_0_1_n_n none lhs rhs (constant S5000x128 .f32 0x00000000#32) (ix2 p q)
      = ∑ k : Fin 128, lhs (ix2 p k) * rhs (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhsIdx_row _ _
    | ⟨1, _⟩ => exact (lhsIdx_lane _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhsIdx_row _ _).trans hk
    | ⟨1, _⟩ => exact rhsIdx_lane _ _)
  rw [el, er]

/-- A column broadcast along the lanes reads the column at the row. -/
theorem bcastCol_at {α : Type} (x : S5000x1.Idx → α) (p : Fin 5000) (q : Fin 128) :
    broadcastTo S5000x128 x broadcasts_S5000x1_S5000x128 (ix2 p q) = x (ix2 p 0) :=
  broadcastTo_apply x broadcasts_S5000x1_S5000x128 (ix2 p q) (ix2 p 0) (fun a => by
    match a with
    | ⟨0, _⟩ => rfl
    | ⟨1, _⟩ => rfl)

/-- A row broadcast down the rows reads the row at the lane. -/
theorem bcastRow_at {α : Type} (x : S1x128.Idx → α) (p : Fin 5000) (q : Fin 128) :
    broadcastTo S5000x128 x broadcasts_S1x128_S5000x128 (ix2 p q) = x (ix2 0 q) :=
  broadcastTo_apply x broadcasts_S1x128_S5000x128 (ix2 p q) (ix2 0 q) (fun a => by
    match a with
    | ⟨0, _⟩ => rfl
    | ⟨1, _⟩ => rfl)

/-- The first body at row `p` and lane `q` is the layer's row `p` at lane `q`. -/
theorem pay0_at (x0 : Vec Ideal S5000x128 .f32) (x1 : Vec Ideal S5000x1 .f32) (x2 : Vec Ideal S5000x128 .f32)
    (x3 : Vec Ideal S128x128 .f32) (x5 : Vec Ideal S128x128 .f32) (x4 : Vec Ideal S1x128 .f32) (p : Fin 5000) (q : Fin 128) :
    k0_pay1 (F := Ideal) x0 x1 x2 x3 x5 x4 (ix2 p q)
      = Cert.Sage.layerRow (fun k => x0 (ix2 p k)) (x1 (ix2 p 0)) (fun k => x2 (ix2 p k)) x3 (fun j => x4 (ix2 0 j)) x5 q := by
  unfold k0_pay1 Cert.Sage.layerRow
  simp only [shapeCast_self]
  show max ((FloatOps.matmul dot_S5000x128_S128x128_S5000x128_1_0_0_1_n_n none
          (truncf .bf16 (mulf x0 (broadcastTo S5000x128 x1 broadcasts_S5000x1_S5000x128)) bitsLt_bf16_f32 : FVec Ideal S5000x128 .bf16)
          (truncf .bf16 x3 bitsLt_bf16_f32 : FVec Ideal S128x128 .bf16) (constant S5000x128 .f32 0x00000000#32) (ix2 p q)
        + broadcastTo S5000x128 x4 broadcasts_S1x128_S5000x128 (ix2 p q))
        + FloatOps.matmul dot_S5000x128_S128x128_S5000x128_1_0_0_1_n_n none (truncf .bf16 x2 bitsLt_bf16_f32 : FVec Ideal S5000x128 .bf16)
          (truncf .bf16 x5 bitsLt_bf16_f32 : FVec Ideal S128x128 .bf16) (constant S5000x128 .f32 0x00000000#32) (ix2 p q))
      (Ideal.ofBits .f32 0x00000000#32) = _
  rw [matmul_at, matmul_at, bcastRow_at, Ideal.ofBits_zero_f32]
  refine congrArg (fun t => max ((t + x4 (ix2 0 q)) + ∑ k : Fin 128, x2 (ix2 p k) * x5 (ix2 k q)) 0) ?_
  refine Finset.sum_congr rfl fun k _ => ?_
  show x0 (ix2 p k) * broadcastTo S5000x128 x1 broadcasts_S5000x1_S5000x128 (ix2 p k) * x3 (ix2 k q) = _
  rw [bcastCol_at]

/-- The sum of a block over its lanes, at row `p`: the sum over the lanes `k` of the block at `(p, k)`. -/
theorem laneSum_at (src : FVec Ideal S5000x128 .f32) (hφ : FKind.Formats .f32)
    (hacc : (0x00000000#32 : BitVec FTy.f32.bits) = FKind.add.neutral .f32 hφ) (p : Fin 5000) :
    multiReduction .add [1] S5000 src 0x00000000#32 reduces_S5000x128_S5000 hφ hacc (ix1 p)
      = ∑ k : Fin 128, src (ix2 p k) := by
  refine (Ideal.multiReduction_add_single src _ reduces_S5000x128_S5000 hφ hacc (ix1 p)).trans ?_
  refine Finset.sum_congr rfl fun k _ => congrArg src (funext fun c => Fin.ext ?_)
  rw [Shape.Reduces.lift_val]
  match c with
  | ⟨0, _⟩ => rfl
  | ⟨1, _⟩ => rfl

/-- A vector of 5000 numbers viewed as a column: row `p` of the column is entry `p` of the vector. -/
theorem castCol_at {α : Type} (x : S5000.Idx → α) (p : Fin 5000) :
    shapeCast S5000x1 x shapeCasts_S5000_S5000x1 (ix2 p 0) = x (ix1 p) :=
  shapeCast_apply x shapeCasts_S5000_S5000x1 (ix2 p 0) (ix1 p) (by
    rw [Shape.rowMajor_val_one, Shape.rowMajor_val_two]
    show p.val = p.val * 1 + 0
    omega)

/-- The second body at row `p`: the layer's row `p` contracted with the row of output weights. -/
theorem pay1_at (x0 : Vec Ideal S5000x128 .f32) (x1 : Vec Ideal S5000x1 .f32) (x2 : Vec Ideal S5000x128 .f32)
    (x3 : Vec Ideal S128x128 .f32) (x5 : Vec Ideal S128x128 .f32) (x4 : Vec Ideal S1x128 .f32) (x6 : Vec Ideal S1x128 .f32) (p : Fin 5000) :
    k1_pay1 (F := Ideal) x0 x1 x2 x3 x5 x4 x6 (ix2 p 0)
      = ∑ q : Fin 128, Cert.Sage.layerRow (fun k => x0 (ix2 p k)) (x1 (ix2 p 0)) (fun k => x2 (ix2 p k)) x3 (fun j => x4 (ix2 0 j)) x5 q * x6 (ix2 0 q) := by
  show shapeCast S5000x1 (multiReduction .add [1] S5000
      (mulf (k0_pay1 (F := Ideal) x0 x1 (shapeCast S5000x128 x2 shapeCasts_S5000x128_S5000x128) x3 x5 x4)
        (broadcastTo S5000x128 (shapeCast S1x128 x6 shapeCasts_S1x128_S1x128) broadcasts_S1x128_S5000x128))
      0x00000000#32 reduces_S5000x128_S5000 (.inl rfl) rfl) shapeCasts_S5000_S5000x1 (ix2 p 0) = _
  rw [castCol_at]
  refine (laneSum_at _ _ _ p).trans ?_
  simp only [shapeCast_self]
  refine Finset.sum_congr rfl fun q _ => ?_
  show k0_pay1 (F := Ideal) x0 x1 x2 x3 x5 x4 (ix2 p q) * broadcastTo S5000x128 x6 broadcasts_S1x128_S5000x128 (ix2 p q) = _
  rw [pay0_at, bcastRow_at]

end Cert.Sage.Pay

end
-- ==== Proof.Region0.lean ====
/-
  The first region's output array as one function of the arrays the region finds.

  The region runs over ten grid points; point `t` reads rows `5000·t … 5000·t + 4999` of the neighbour sums, of the
  reciprocal counts and of the features, reads the two weight matrices and the bias row whole, and writes the same
  rows of the output.  The body's stored value at `(p, q)` of a block is one layer row (`layerRow`) of row `p` of
  the blocks; row `p` of block `t` is row `5000·t + p` of the array, the ten blocks tile the 50000 rows, so the
  array after the region is `layer` of the arrays as the region finds them — whatever those are: the statement is
  for any contents `V` at the region's entry.
-/
import proofs.«169117_j77171972374887_2_alg».proof.Proof.Gen.KernelIdeal.Frame
import proofs.«169117_j77171972374887_2_alg».proof.Proof.Spec
import Idealize.ShloMosaic.Lib.Pipeline.Value
import Idealize.ShloMosaic.Lib.ValueIdx

set_option maxRecDepth 16384

noncomputable section

namespace Cert.Sage.Reg0

open Cert.KernelIdeal Cert.KernelIdeal.Gen Idealize.ShloMosaic Idealize.ShloMosaic.TcCoe Idealize.SL.Sem
open Idealize.ShloMosaic.ValueIdx
open Idealize.ShloMosaic.Pipeline (Dat)

/-- What the body's stored value is at an index of its block: one layer row of the loaded blocks' rows. -/
def PayAt : Prop :=
  ∀ (x0 : Vec Ideal S5000x128 .f32) (x1 : Vec Ideal S5000x1 .f32) (x2 : Vec Ideal S5000x128 .f32)
    (x3 : Vec Ideal S128x128 .f32) (x5 : Vec Ideal S128x128 .f32) (x4 : Vec Ideal S1x128 .f32) (p : Fin 5000) (q : Fin 128),
    k0_pay1 (F := Ideal) x0 x1 x2 x3 x5 x4 (ix2 p q)
      = Cert.Sage.layerRow (fun k => x0 (ix2 p k)) (x1 (ix2 p 0)) (fun k => x2 (ix2 p k)) x3 (fun j => x4 (ix2 0 j)) x5 q

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the whole-array windows at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 10 := by
  have h := t.isLt
  have hN : cfg0.N = 10 := N_0
  omega

/-- Row `p` of block `t` is row `5000·t + p` of the array. -/
def row (t : Fin cfg0.N) (p : Fin 5000) : Fin 50000 := ⟨t.val * 5000 + p.val, by have := t_lt t; have := p.isLt; omega⟩

theorem read0 (c : Dev nD) (t : Fin cfg0.N) (p : Fin 5000) (k : Fin 128) :
    iblk0 V c 0 t (ix2 p k) = V c main_v26 (ix2 (row t p) k) := by
  obtain ⟨e0, e1, -⟩ := idx_facts t
  show V c main_v26 (((cfg0.win 0).blk t).view.emb (ix2 p k)) = V c main_v26 (ix2 (row t p) k)
  refine congrArg _ ?_
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem read1 (c : Dev nD) (t : Fin cfg0.N) (p : Fin 5000) :
    iblk0 V c 1 t (ix2 p 0) = V c main_v14 (ix2 (row t p) 0) := by
  obtain ⟨-, -, e0, e1, -⟩ := idx_facts t
  show V c main_v14 (((cfg0.win 1).blk t).view.emb (ix2 p 0)) = V c main_v14 (ix2 (row t p) 0)
  refine congrArg _ ?_
  funext a; apply Fin.ext
  match a with
  | ⟨0, _⟩ => show win0_1.index t (0 : Fin 2) * 5000 + 1 * p.val = t.val * 5000 + p.val; omega
  | ⟨1, _⟩ => show win0_1.index t (1 : Fin 2) * 1 + 1 * 0 = 0; omega

theorem read2 (c : Dev nD) (t : Fin cfg0.N) (p : Fin 5000) (k : Fin 128) :
    iblk0 V c 2 t (ix2 p k) = V c main_arg0 (ix2 (row t p) k) := by
  obtain ⟨-, -, -, -, e0, e1, -⟩ := idx_facts t
  show V c main_arg0 (((cfg0.win 2).blk t).view.emb (ix2 p k)) = V c main_arg0 (ix2 (row t p) k)
  refine congrArg _ ?_
  funext a; apply Fin.ext
  match a with
  | ⟨0, _⟩ => show win0_2.index t (0 : Fin 2) * 5000 + 1 * p.val = t.val * 5000 + p.val; omega
  | ⟨1, _⟩ => show win0_2.index t (1 : Fin 2) * 128 + 1 * k.val = k.val; omega

theorem read3 (c : Dev nD) (t : Fin cfg0.N) : iblk0 V c 3 t = V c main_arg2 := by
  obtain ⟨-, -, -, -, -, -, e0, e1, -⟩ := idx_facts t
  funext y
  show V c main_arg2 (((cfg0.win 3).blk t).view.emb y) = V c main_arg2 y
  refine congrArg _ ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem read4 (c : Dev nD) (t : Fin cfg0.N) : iblk0 V c 4 t = V c main_v4 := by
  obtain ⟨-, -, -, -, -, -, -, -, e0, e1, -⟩ := idx_facts t
  funext y
  show V c main_v4 (((cfg0.win 4).blk t).view.emb y) = V c main_v4 y
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem read5 (c : Dev nD) (t : Fin cfg0.N) : iblk0 V c 5 t = V c main_arg4 := by
  obtain ⟨-, -, -, -, -, -, -, -, -, -, e0, e1, -⟩ := idx_facts t
  funext y
  show V c main_arg4 (((cfg0.win 5).blk t).view.emb y) = V c main_arg4 y
  refine congrArg _ ?_
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem emb6 (t : Fin cfg0.N) (p : Fin 5000) (q : Fin 128) :
    ((cfg0.win 6).blk t).view.emb (ix2 p q) = (ix2 (row t p) q : S50000x128.Idx) := by
  obtain ⟨-, -, -, -, -, -, -, -, -, -, -, -, e0, e1⟩ := idx_facts t
  funext a; apply Fin.ext
  match a with
  | ⟨0, _⟩ => show win0_6.index t (0 : Fin 2) * 5000 + 1 * p.val = t.val * 5000 + p.val; omega
  | ⟨1, _⟩ => show win0_6.index t (1 : Fin 2) * 128 + 1 * q.val = q.val; omega

/-- The whole-array function the region leaves in its output array. -/
abbrev G (c : Dev nD) : S50000x128.Idx → EReal :=
  Cert.Sage.layer (V c main_v26) (fun r => V c main_v14 (ix2 r 0)) (V c main_arg0) (V c main_arg2)
    (fun q => V c main_v4 (ix2 0 q)) (V c main_arg4)

/-- What point `t` writes back is block `t` of `G`. -/
theorem flushed6_eq (hpay : PayAt) (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 5 t) (iblk0 V c 4 t) (ix2 p q)
    = G V c (((cfg0.win 6).blk t).view.emb (ix2 p q))
  refine (hpay (iblk0 V c 0 t) (iblk0 V c 1 t) (iblk0 V c 2 t) (iblk0 V c 3 t) (iblk0 V c 5 t) (iblk0 V c 4 t) p q).trans ?_
  rw [emb6 t p q]
  show _ = Cert.Sage.layerRow (fun k => V c main_v26 (ix2 (row t p) k)) (V c main_v14 (ix2 (row t p) 0))
    (fun k => V c main_arg0 (ix2 (row t p) k)) (V c main_arg2) (fun q => V c main_v4 (ix2 0 q)) (V c main_arg4) q
  simp only [read0 V c t p, read1 V c t p, read2 V c t p, read3 V c t, read4 V c t, read5 V c t]

/-- An index of the array is in point `t`'s block iff each coordinate is in the block's range on its axis. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v27).slice (win0_6.rect t)).set ↔ _
  rw [View.set_slice_whole, Rect.mem_set_unit]
  exact Iff.rfl

/-- Every index of the array is in the block of the point its row falls in. -/
theorem cover6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  have ht : (i 0).val / 5000 < cfg0.N := by omega
  refine ⟨⟨(i 0).val / 5000, ht⟩, flush0_6 _, ?_⟩
  rw [mem_blk6]
  obtain ⟨-, -, -, -, -, -, -, -, -, -, -, -, e0, e1⟩ := idx_facts ⟨(i 0).val / 5000, ht⟩
  have e0' : win0_6.index ⟨(i 0).val / 5000, ht⟩ (0 : Fin 2) = (i 0).val / 5000 := e0
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    omega

/-- The output array after the region: `layer` of the arrays as the region finds them. -/
theorem final6 (hpay : PayAt) (c : Dev nD) : (dat0 V c).arrAt 6 cfg0.N = G V c :=
  (dat0 V c).arrAt_eq_of_cover 6 (G V c) (fun t _ => flushed6_eq V hpay c t) cover6

end Cert.Sage.Reg0

end
-- ==== Proof.Region1.lean ====
/-
  The second region's output array as one function of the arrays the region finds.

  As in the first region, point `t` of the ten reads rows `5000·t … 5000·t + 4999` of the neighbour sums, of the
  reciprocal counts and of the hidden features, and reads the two weight matrices, the bias row and the row of output
  weights whole; it writes the same rows of a one-column output.  The body's stored value at row `p` of a block is
  the layer row of row `p` contracted with the output weights; the ten blocks tile the 50000 rows, so the array after
  the region is `head` of the arrays as the region finds them, for any contents `V` at the region's entry.
-/
import proofs.«169117_j77171972374887_2_alg».proof.Proof.Gen.KernelIdeal.Frame
import proofs.«169117_j77171972374887_2_alg».proof.Proof.Spec
import Idealize.ShloMosaic.Lib.Pipeline.Value
import Idealize.ShloMosaic.Lib.ValueIdx

set_option maxRecDepth 16384

noncomputable section

namespace Cert.Sage.Reg1

open Cert.KernelIdeal Cert.KernelIdeal.Gen Idealize.ShloMosaic Idealize.ShloMosaic.TcCoe Idealize.SL.Sem
open Idealize.ShloMosaic.ValueIdx
open Idealize.ShloMosaic.Pipeline (Dat)

/-- What the body's stored value is at a row of its block: the layer row of the loaded blocks' rows, contracted with
    the row of output weights. -/
def PayAt : Prop :=
  ∀ (x0 : Vec Ideal S5000x128 .f32) (x1 : Vec Ideal S5000x1 .f32) (x2 : Vec Ideal S5000x128 .f32)
    (x3 : Vec Ideal S128x128 .f32) (x5 : Vec Ideal S128x128 .f32) (x4 : Vec Ideal S1x128 .f32) (x6 : Vec Ideal S1x128 .f32) (p : Fin 5000),
    k1_pay1 (F := Ideal) x0 x1 x2 x3 x5 x4 x6 (ix2 p 0)
      = ∑ q : Fin 128, Cert.Sage.layerRow (fun k => x0 (ix2 p k)) (x1 (ix2 p 0)) (fun k => x2 (ix2 p k)) x3 (fun j => x4 (ix2 0 j)) x5 q * x6 (ix2 0 q)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the whole-array windows at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem t_lt (t : Fin cfg1.N) : t.val < 10 := by
  have h := t.isLt
  have hN : cfg1.N = 10 := N_1
  omega

/-- Row `p` of block `t` is row `5000·t + p` of the array. -/
def row (t : Fin cfg1.N) (p : Fin 5000) : Fin 50000 := ⟨t.val * 5000 + p.val, by have := t_lt t; have := p.isLt; omega⟩

theorem read0 (c : Dev nD) (t : Fin cfg1.N) (p : Fin 5000) (k : Fin 128) :
    iblk1 V c 0 t (ix2 p k) = V c main_v39 (ix2 (row t p) k) := by
  obtain ⟨e0, e1, -⟩ := idx_facts t
  show V c main_v39 (((cfg1.win 0).blk t).view.emb (ix2 p k)) = V c main_v39 (ix2 (row t p) k)
  refine congrArg _ ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem read1 (c : Dev nD) (t : Fin cfg1.N) (p : Fin 5000) :
    iblk1 V c 1 t (ix2 p 0) = V c main_v14 (ix2 (row t p) 0) := by
  obtain ⟨-, -, e0, e1, -⟩ := idx_facts t
  show V c main_v14 (((cfg1.win 1).blk t).view.emb (ix2 p 0)) = V c main_v14 (ix2 (row t p) 0)
  refine congrArg _ ?_
  funext a; apply Fin.ext
  match a with
  | ⟨0, _⟩ => show win1_1.index t (0 : Fin 2) * 5000 + 1 * p.val = t.val * 5000 + p.val; omega
  | ⟨1, _⟩ => show win1_1.index t (1 : Fin 2) * 1 + 1 * 0 = 0; omega

theorem read2 (c : Dev nD) (t : Fin cfg1.N) (p : Fin 5000) (k : Fin 128) :
    iblk1 V c 2 t (ix2 p k) = V c main_v27 (ix2 (row t p) k) := by
  obtain ⟨-, -, -, -, e0, e1, -⟩ := idx_facts t
  show V c main_v27 (((cfg1.win 2).blk t).view.emb (ix2 p k)) = V c main_v27 (ix2 (row t p) k)
  refine congrArg _ ?_
  funext a; apply Fin.ext
  match a with
  | ⟨0, _⟩ => show win1_2.index t (0 : Fin 2) * 5000 + 1 * p.val = t.val * 5000 + p.val; omega
  | ⟨1, _⟩ => show win1_2.index t (1 : Fin 2) * 128 + 1 * k.val = k.val; omega

theorem read3 (c : Dev nD) (t : Fin cfg1.N) : iblk1 V c 3 t = V c main_arg5 := by
  obtain ⟨-, -, -, -, -, -, e0, e1, -⟩ := idx_facts t
  funext y
  show V c main_arg5 (((cfg1.win 3).blk t).view.emb y) = V c main_arg5 y
  refine congrArg _ ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem read4 (c : Dev nD) (t : Fin cfg1.N) : iblk1 V c 4 t = V c main_v5 := by
  obtain ⟨-, -, -, -, -, -, -, -, e0, e1, -⟩ := idx_facts t
  funext y
  show V c main_v5 (((cfg1.win 4).blk t).view.emb y) = V c main_v5 y
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem read5 (c : Dev nD) (t : Fin cfg1.N) : iblk1 V c 5 t = V c main_arg7 := by
  obtain ⟨-, -, -, -, -, -, -, -, -, -, e0, e1, -⟩ := idx_facts t
  funext y
  show V c main_arg7 (((cfg1.win 5).blk t).view.emb y) = V c main_arg7 y
  refine congrArg _ ?_
  funext a; apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem read6 (c : Dev nD) (t : Fin cfg1.N) : iblk1 V c 6 t = V c main_v6 := by
  obtain ⟨-, -, -, -, -, -, -, -, -, -, -, -, e0, e1, -⟩ := idx_facts t
  funext y
  show V c main_v6 (((cfg1.win 6).blk t).view.emb y) = V c main_v6 y
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

theorem emb7 (t : Fin cfg1.N) (p : Fin 5000) :
    ((cfg1.win 7).blk t).view.emb (ix2 p 0) = (ix2 (row t p) 0 : S50000x1.Idx) := by
  obtain ⟨-, -, -, -, -, -, -, -, -, -, -, -, -, -, e0, e1⟩ := idx_facts t
  funext a; apply Fin.ext
  match a with
  | ⟨0, _⟩ => show win1_7.index t (0 : Fin 2) * 5000 + 1 * p.val = t.val * 5000 + p.val; omega
  | ⟨1, _⟩ => show win1_7.index t (1 : Fin 2) * 1 + 1 * 0 = 0; omega

/-- The whole-array function the region leaves in its output array. -/
abbrev G (c : Dev nD) : S50000x1.Idx → EReal :=
  Cert.Sage.head (V c main_v39) (fun r => V c main_v14 (ix2 r 0)) (V c main_v27) (V c main_arg5)
    (fun q => V c main_v5 (ix2 0 q)) (V c main_arg7) (fun q => V c main_v6 (ix2 0 q))

/-- What point `t` writes back is block `t` of `G`. -/
theorem flushed7_eq (hpay : PayAt) (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, z, rfl⟩ : ∃ (p : Fin 5000) (z : Fin 1), j = ix2 p z := ⟨j 0, j 1, eq_ix2 j⟩
  obtain rfl : z = 0 := Subsingleton.elim _ _
  show k1_pay1 (F := Ideal) (iblk1 V c 0 t) (iblk1 V c 1 t) (iblk1 V c 2 t) (iblk1 V c 3 t) (iblk1 V c 5 t) (iblk1 V c 4 t) (iblk1 V c 6 t) (ix2 p 0)
    = G V c (((cfg1.win 7).blk t).view.emb (ix2 p 0))
  refine (hpay (iblk1 V c 0 t) (iblk1 V c 1 t) (iblk1 V c 2 t) (iblk1 V c 3 t) (iblk1 V c 5 t) (iblk1 V c 4 t) (iblk1 V c 6 t) p).trans ?_
  rw [emb7 t p]
  show _ = ∑ q : Fin 128, Cert.Sage.layerRow (fun k => V c main_v39 (ix2 (row t p) k)) (V c main_v14 (ix2 (row t p) 0))
    (fun k => V c main_v27 (ix2 (row t p) k)) (V c main_arg5) (fun q => V c main_v5 (ix2 0 q)) (V c main_arg7) q * V c main_v6 (ix2 0 q)
  simp only [read0 V c t p, read1 V c t p, read2 V c t p, read3 V c t, read4 V c t, read5 V c t, read6 V c t]

/-- An index of the array is in point `t`'s block iff each coordinate is in the block's range on its axis. -/
theorem mem_blk7 (t : Fin cfg1.N) (i : S50000x1.Idx) :
    i ∈ ((cfg1.win 7).blk t).view.set ↔ ∀ a : Fin 2, win1_7.index t a * S5000x1.size a ≤ (i a).val ∧ (i a).val < win1_7.index t a * S5000x1.size a + S5000x1.size a := by
  show i ∈ ((View.whole main_v40).slice (win1_7.rect t)).set ↔ _
  rw [View.set_slice_whole, Rect.mem_set_unit]
  exact Iff.rfl

/-- Every index of the array is in the block of the point its row falls in. -/
theorem cover7 (i : S50000x1.Idx) :
    ∃ t : Fin cfg1.N, (cfg1.win 7).flush t = true ∧ i ∈ ((cfg1.win 7).blk t).view.set := by
  have hi0 : (i 0).val < 50000 := (i 0).isLt
  have hi1 : (i 1).val < 1 := (i 1).isLt
  have hN : cfg1.N = 10 := N_1
  have ht : (i 0).val / 5000 < cfg1.N := by omega
  refine ⟨⟨(i 0).val / 5000, ht⟩, flush1_7 _, ?_⟩
  rw [mem_blk7]
  obtain ⟨-, -, -, -, -, -, -, -, -, -, -, -, -, -, e0, e1⟩ := idx_facts ⟨(i 0).val / 5000, ht⟩
  have e0' : win1_7.index ⟨(i 0).val / 5000, ht⟩ (0 : Fin 2) = (i 0).val / 5000 := e0
  intro a
  match a with
  | ⟨0, _⟩ =>
    show win1_7.index ⟨(i 0).val / 5000, ht⟩ (0 : Fin 2) * 5000 ≤ (i 0).val ∧ (i 0).val < win1_7.index ⟨(i 0).val / 5000, ht⟩ (0 : Fin 2) * 5000 + 5000
    omega
  | ⟨1, _⟩ =>
    show win1_7.index ⟨(i 0).val / 5000, ht⟩ (1 : Fin 2) * 1 ≤ (i 1).val ∧ (i 1).val < win1_7.index ⟨(i 0).val / 5000, ht⟩ (1 : Fin 2) * 1 + 1
    omega

/-- The output array after the region: `head` of the arrays as the region finds them. -/
theorem final7 (hpay : PayAt) (c : Dev nD) : (dat1 V c).arrAt 7 cfg1.N = G V c :=
  (dat1 V c).arrAt_eq_of_cover 7 (G V c) (fun t _ => flushed7_eq V hpay c t) cover7

end Cert.Sage.Reg1

end
-- ==== Proof.HostTerms.lean ====
/-
  What the idealized kernel program's host operations compute, as functions of the program's argument arrays.

  Before the first region the host slices the edge list into sources and destinations, counts each node's incoming
  edges by a scatter-add of ones, clamps the count below by one and takes its reciprocal, gathers the source rows of the
  features and scatter-adds them onto the destinations (the format changes on the way to the gather and back are the
  identity on extended reals); between the regions it gathers and scatter-adds the rows of the first region's output
  in the same way; after the second region it drops the unit axis and adds the output bias.
-/
import proofs.«169117_j77171972374887_2_alg».proof.Proof.Gen.KernelIdeal.Launch
import Idealize.ShloMosaic.Lib.StableHlo.Run
import Idealize.ShloMosaic.PureOps.Ideal
import Idealize.ShloMosaic.Lib.ValueIdx
import proofs.«169117_j77171972374887_2_alg».proof.Proof.Spec

set_option maxRecDepth 16384

noncomputable section

namespace Cert.Sage.Host

open Cert.KernelIdeal Cert.KernelIdeal.Gen Idealize.ShloMosaic Idealize.ShloMosaic.TcCoe Idealize.SL.Sem
open Idealize.ShloMosaic.StableHlo Idealize.ShloMosaic.ValueIdx

abbrev TI1 := (⟨S2x800000, .i32⟩ : BufTy).Contents (Elt Ideal)
abbrev TE := (⟨S800000, .i32⟩ : BufTy).Contents (Elt Ideal)
abbrev TF := (⟨S50000x128, .f32⟩ : BufTy).Contents (Elt Ideal)
abbrev TC := (⟨S50000x1, .f32⟩ : BufTy).Contents (Elt Ideal)
abbrev TW := (⟨S128x128, .f32⟩ : BufTy).Contents (Elt Ideal)
abbrev TB := (⟨S128, .f32⟩ : BufTy).Contents (Elt Ideal)
abbrev TO := (⟨S128x1, .f32⟩ : BufTy).Contents (Elt Ideal)

/-- The edges' source nodes. -/
def srcV (a1 : TI1) : TE :=
  shapeCast _ (extractStridedSlice S1x800000 ![0, 0] a1 slices_S2x800000_S1x800000_0_0) shapeCasts_S1x800000_S800000
/-- The edges' destination nodes. -/
def dstV (a1 : TI1) : TE :=
  shapeCast _ (extractStridedSlice S1x800000 ![1, 0] a1 slices_S2x800000_S1x800000_1_0) shapeCasts_S1x800000_S800000
/-- Each node's count of incoming edges, clamped below by one. -/
def cntV (a1 : TI1) : TC :=
  maximumf (Host.scatterAdd scatter_S50000x1_S800000x1_S800000x1_1_0_0_1
      (broadcastInDim S50000x1 ![] bcast_S_S50000x1 (constant (F := Ideal) S_ .f32 0x00000000#32))
      (broadcastInDim S800000x1 ![0] bcast_S800000_S800000x1_0 (dstV a1))
      (broadcastInDim S800000x1 ![] bcast_S_S800000x1 (constant (F := Ideal) S_ .f32 0x3F800000#32)))
    (broadcastInDim S50000x1 ![] bcast_S_S50000x1 (constant (F := Ideal) S_ .f32 0x3F800000#32))
/-- Its reciprocal. -/
def invV (a1 : TI1) : TC :=
  Host.divf (F := Ideal) (broadcastInDim S50000x1 ![] bcast_S_S50000x1 (constant (F := Ideal) S_ .f32 0x3F800000#32)) (cntV a1)
/-- The gather's start indices: a negative source index counted from the end. -/
def srcIdx (s : TE) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- The neighbour sums of a feature table: its source rows gathered and added onto the destinations. -/
def aggV (d s : TE) (feat : TF) : TF :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (extf .f32 (Host.gather gather_S50000x128_S800000x1_S800000x128_1_0_n_n_0_1_1128 (truncf .bf16 feat bitsLt_bf16_f32) (srcIdx s)) bitsLt_bf16_f32)

/-- The hidden features: the first layer of the input features `a0` over the edges `a1`. -/
def hiddenOf (a0 : TF) (a1 : TI1) (a2 : TW) (a3 : TB) (a4 : TW) : TF :=
  Cert.Sage.layer (aggV (dstV a1) (srcV a1) a0) (fun r => invV a1 (ix2 r 0)) a0 a2
    (fun q => shapeCast S1x128 a3 shapeCasts_S128_S1x128 (ix2 0 q)) a4

/-- The output column: the second layer of the hidden features, contracted with the output weights. -/
def columnOf (a0 : TF) (a1 : TI1) (a2 : TW) (a3 : TB) (a4 a5 : TW) (a6 : TB) (a7 : TW) (a8 : TO) : TC :=
  Cert.Sage.head (aggV (dstV a1) (srcV a1) (hiddenOf a0 a1 a2 a3 a4)) (fun r => invV a1 (ix2 r 0))
    (hiddenOf a0 a1 a2 a3 a4) a5 (fun q => shapeCast S1x128 a6 shapeCasts_S128_S1x128 (ix2 0 q)) a7
    (fun q => transpose S1x128 [1, 0] a8 transposes_S128x1_S1x128_1_0 (ix2 0 q))

variable (W : Valuation τ sig (Elt Ideal))

/-! ## The stretch before the first region -/

theorem ops0_v1 : after hostOps0 W (Proc.devRef .tc main_v1) = srcV (W (Proc.devRef .tc main_arg1)) := by
  after_results_simp <;> rfl
theorem ops0_v3 : after hostOps0 W (Proc.devRef .tc main_v3) = dstV (W (Proc.devRef .tc main_arg1)) := by
  after_results_simp <;> rfl
theorem ops0_v4 : after hostOps0 W (Proc.devRef .tc main_v4) = shapeCast S1x128 (W (Proc.devRef .tc main_arg3)) shapeCasts_S128_S1x128 := by
  after_results_simp <;> rfl
theorem ops0_v5 : after hostOps0 W (Proc.devRef .tc main_v5) = shapeCast S1x128 (W (Proc.devRef .tc main_arg6)) shapeCasts_S128_S1x128 := by
  after_results_simp <;> rfl
theorem ops0_v6 : after hostOps0 W (Proc.devRef .tc main_v6) = transpose S1x128 [1, 0] (W (Proc.devRef .tc main_arg8)) transposes_S128x1_S1x128_1_0 := by
  after_results_simp <;> rfl
theorem ops0_v14 : after hostOps0 W (Proc.devRef .tc main_v14) = invV (W (Proc.devRef .tc main_arg1)) := by
  after_results_simp <;> rfl
theorem ops0_v26 : after hostOps0 W (Proc.devRef .tc main_v26)
    = aggV (dstV (W (Proc.devRef .tc main_arg1))) (srcV (W (Proc.devRef .tc main_arg1))) (W (Proc.devRef .tc main_arg0)) := by
  after_results_simp <;> rfl

theorem ops0_arg0 : after hostOps0 W (Proc.devRef .tc main_arg0) = W (Proc.devRef .tc main_arg0) := by after_results_simp
theorem ops0_arg2 : after hostOps0 W (Proc.devRef .tc main_arg2) = W (Proc.devRef .tc main_arg2) := by after_results_simp
theorem ops0_arg4 : after hostOps0 W (Proc.devRef .tc main_arg4) = W (Proc.devRef .tc main_arg4) := by after_results_simp
theorem ops0_arg5 : after hostOps0 W (Proc.devRef .tc main_arg5) = W (Proc.devRef .tc main_arg5) := by after_results_simp
theorem ops0_arg7 : after hostOps0 W (Proc.devRef .tc main_arg7) = W (Proc.devRef .tc main_arg7) := by after_results_simp
theorem ops0_arg9 : after hostOps0 W (Proc.devRef .tc main_arg9) = W (Proc.devRef .tc main_arg9) := by after_results_simp

/-! ## The stretch between the regions -/

theorem ops1_v39 : after hostOps1 W (Proc.devRef .tc main_v39)
    = aggV (W (Proc.devRef .tc main_v3)) (W (Proc.devRef .tc main_v1)) (W (Proc.devRef .tc main_v27)) := by
  after_results_simp <;> rfl
theorem ops1_v14 : after hostOps1 W (Proc.devRef .tc main_v14) = W (Proc.devRef .tc main_v14) := by after_results_simp
theorem ops1_v27 : after hostOps1 W (Proc.devRef .tc main_v27) = W (Proc.devRef .tc main_v27) := by after_results_simp
theorem ops1_v5 : after hostOps1 W (Proc.devRef .tc main_v5) = W (Proc.devRef .tc main_v5) := by after_results_simp
theorem ops1_v6 : after hostOps1 W (Proc.devRef .tc main_v6) = W (Proc.devRef .tc main_v6) := by after_results_simp
theorem ops1_arg5 : after hostOps1 W (Proc.devRef .tc main_arg5) = W (Proc.devRef .tc main_arg5) := by after_results_simp
theorem ops1_arg7 : after hostOps1 W (Proc.devRef .tc main_arg7) = W (Proc.devRef .tc main_arg7) := by after_results_simp
theorem ops1_arg9 : after hostOps1 W (Proc.devRef .tc main_arg9) = W (Proc.devRef .tc main_arg9) := by after_results_simp

/-! ## The stretch after the second region -/

/-- The program's result from the second region's output column and the output bias. -/
def tailV (o : TC) (a9 : (⟨S1, .f32⟩ : BufTy).Contents (Elt Ideal)) : (⟨S50000, .f32⟩ : BufTy).Contents (Elt Ideal) :=
  (addf (F := Ideal) (φ := .f32) (shapeCast S50000 o shapeCasts_S50000x1_S50000)
    (broadcastInDim S50000 ![] bcast_S_S50000 (shapeCast S_ a9 shapeCasts_S1_S_)) : FVec Ideal S50000 .f32)

theorem ops2_v44 : after hostOps2 W (Proc.devRef .tc main_v44)
    = tailV (W (Proc.devRef .tc main_v40)) (W (Proc.devRef .tc main_arg9)) := by
  after_results_simp <;> rfl

end Cert.Sage.Host

end
-- ==== Proof.KernelValue.lean ====
/-
  The idealized kernel program's run with its result named as a function of the argument arrays.

  The program's buffers after its five segments are a fold of the launch contents through three stretches of host
  operations and two regions.  Read back at the result buffer: the output bias added to the second region's output
  column; that column is `head` of the neighbour sums of the hidden features, the reciprocal counts, the hidden
  features and the second layer's parameters; the hidden features are the first region's output, `layer` of the
  neighbour sums of the input features, the reciprocal counts, the input features and the first layer's parameters.
  Every array a region reads is either an argument, untouched since the launch, or a host stretch's result.
-/
import proofs.«169117_j77171972374887_2_alg».proof.Proof.FrameNamed
import proofs.«169117_j77171972374887_2_alg».proof.Proof.Region0
import proofs.«169117_j77171972374887_2_alg».proof.Proof.Region1
import proofs.«169117_j77171972374887_2_alg».proof.Proof.HostTerms

set_option maxRecDepth 16384

noncomputable section

namespace Cert.Sage.KV

open Cert.KernelIdeal Cert.KernelIdeal.Gen Idealize.ShloMosaic Idealize.ShloMosaic.TcCoe Idealize.SL.Sem
open Idealize.ShloMosaic.ValueIdx Idealize.ShloMosaic.StableHlo
open Cert.Sage.Host

variable (m : (ℓ : Loc nD τ sig) → Buf (Elt Ideal) ℓ) (ρ : Dev nD → PrngReg)

/-- The hidden features, of the launch contents of the arguments. -/
def hidden (c : Dev nD) : TF :=
  hiddenOf (m ((c : Thread nD τ).loc main_arg0)) (m ((c : Thread nD τ).loc main_arg1)) (m ((c : Thread nD τ).loc main_arg2))
    (m ((c : Thread nD τ).loc main_arg3)) (m ((c : Thread nD τ).loc main_arg4))

/-- The output column, of the launch contents of the arguments. -/
def column (c : Dev nD) : TC :=
  columnOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ## The arrays the first region finds -/

theorem V1_v26 (c : Dev nD) : V1 m ρ c main_v26
    = aggV (dstV (m ((c : Thread nD τ).loc main_arg1))) (srcV (m ((c : Thread nD τ).loc main_arg1))) (m ((c : Thread nD τ).loc main_arg0)) :=
  ops0_v26 (W0 m ρ c)
theorem V1_v14 (c : Dev nD) : V1 m ρ c main_v14 = invV (m ((c : Thread nD τ).loc main_arg1)) := ops0_v14 (W0 m ρ c)
theorem V1_v4 (c : Dev nD) : V1 m ρ c main_v4 = shapeCast S1x128 (m ((c : Thread nD τ).loc main_arg3)) shapeCasts_S128_S1x128 := ops0_v4 (W0 m ρ c)
theorem V1_arg0 (c : Dev nD) : V1 m ρ c main_arg0 = m ((c : Thread nD τ).loc main_arg0) := ops0_arg0 (W0 m ρ c)
theorem V1_arg2 (c : Dev nD) : V1 m ρ c main_arg2 = m ((c : Thread nD τ).loc main_arg2) := ops0_arg2 (W0 m ρ c)
theorem V1_arg4 (c : Dev nD) : V1 m ρ c main_arg4 = m ((c : Thread nD τ).loc main_arg4) := ops0_arg4 (W0 m ρ c)

/-- The first region leaves the hidden features in its output array. -/
theorem W2_v27 (hp0 : Reg0.PayAt) (c : Dev nD) : W2 m ρ c (Proc.devRef .tc main_v27) = hidden m c := by
  refine (W2_arr m ρ c 6).trans ?_
  refine (Reg0.final6 (V1 m ρ) hp0 c).trans ?_
  show Cert.Sage.layer (V1 m ρ c main_v26) (fun r => V1 m ρ c main_v14 (ix2 r 0)) (V1 m ρ c main_arg0) (V1 m ρ c main_arg2)
    (fun q => V1 m ρ c main_v4 (ix2 0 q)) (V1 m ρ c main_arg4) = _
  rw [V1_v26 m ρ c, V1_v14 m ρ c, V1_arg0 m ρ c, V1_arg2 m ρ c, V1_v4 m ρ c, V1_arg4 m ρ c]
  rfl

/-! ## The arrays the second region finds -/

theorem W2_v3 (c : Dev nD) : W2 m ρ c (Proc.devRef .tc main_v3) = dstV (m ((c : Thread nD τ).loc main_arg1)) :=
  (W2_of_ne m ρ c main_v3 (by decide)).trans (ops0_v3 (W0 m ρ c))
theorem W2_v1 (c : Dev nD) : W2 m ρ c (Proc.devRef .tc main_v1) = srcV (m ((c : Thread nD τ).loc main_arg1)) :=
  (W2_of_ne m ρ c main_v1 (by decide)).trans (ops0_v1 (W0 m ρ c))

theorem V3_v39 (hp0 : Reg0.PayAt) (c : Dev nD) : V3 m ρ c main_v39
    = aggV (dstV (m ((c : Thread nD τ).loc main_arg1))) (srcV (m ((c : Thread nD τ).loc main_arg1))) (hidden m c) := by
  refine (ops1_v39 (W2 m ρ c)).trans ?_
  rw [W2_v3 m ρ c, W2_v1 m ρ c, W2_v27 m ρ hp0 c]
theorem V3_v14 (c : Dev nD) : V3 m ρ c main_v14 = invV (m ((c : Thread nD τ).loc main_arg1)) :=
  (ops1_v14 (W2 m ρ c)).trans ((W2_arr m ρ c 1).trans (((dat0 (V1 m ρ) c).arrAt_in 1 rfl _).trans
    ((A_eq0 (V1 m ρ) c 1).trans (ops0_v14 (W0 m ρ c)))))
theorem V3_v27 (hp0 : Reg0.PayAt) (c : Dev nD) : V3 m ρ c main_v27 = hidden m c :=
  (ops1_v27 (W2 m ρ c)).trans (W2_v27 m ρ hp0 c)
theorem V3_arg5 (c : Dev nD) : V3 m ρ c main_arg5 = m ((c : Thread nD τ).loc main_arg5) :=
  (ops1_arg5 (W2 m ρ c)).trans ((W2_of_ne m ρ c main_arg5 (by decide)).trans (ops0_arg5 (W0 m ρ c)))
theorem V3_arg7 (c : Dev nD) : V3 m ρ c main_arg7 = m ((c : Thread nD τ).loc main_arg7) :=
  (ops1_arg7 (W2 m ρ c)).trans ((W2_of_ne m ρ c main_arg7 (by decide)).trans (ops0_arg7 (W0 m ρ c)))
theorem V3_v5 (c : Dev nD) : V3 m ρ c main_v5 = shapeCast S1x128 (m ((c : Thread nD τ).loc main_arg6)) shapeCasts_S128_S1x128 :=
  (ops1_v5 (W2 m ρ c)).trans ((W2_of_ne m ρ c main_v5 (by decide)).trans (ops0_v5 (W0 m ρ c)))
theorem V3_v6 (c : Dev nD) : V3 m ρ c main_v6 = transpose S1x128 [1, 0] (m ((c : Thread nD τ).loc main_arg8)) transposes_S128x1_S1x128_1_0 :=
  (ops1_v6 (W2 m ρ c)).trans ((W2_of_ne m ρ c main_v6 (by decide)).trans (ops0_v6 (W0 m ρ c)))

/-- The second region leaves the output column in its output array. -/
theorem W4_v40 (hp0 : Reg0.PayAt) (hp1 : Reg1.PayAt) (c : Dev nD) : W4 m ρ c (Proc.devRef .tc main_v40) = column m c := by
  refine (W4_arr m ρ c 7).trans ?_
  refine (Reg1.final7 (V3 m ρ) hp1 c).trans ?_
  show Cert.Sage.head (V3 m ρ c main_v39) (fun r => V3 m ρ c main_v14 (ix2 r 0)) (V3 m ρ c main_v27) (V3 m ρ c main_arg5)
    (fun q => V3 m ρ c main_v5 (ix2 0 q)) (V3 m ρ c main_arg7) (fun q => V3 m ρ c main_v6 (ix2 0 q)) = _
  rw [V3_v39 m ρ hp0 c, V3_v14 m ρ c, V3_v27 m ρ hp0 c, V3_arg5 m ρ c, V3_v5 m ρ c, V3_arg7 m ρ c, V3_v6 m ρ c]
  rfl

theorem W4_arg9 (c : Dev nD) : W4 m ρ c (Proc.devRef .tc main_arg9) = m ((c : Thread nD τ).loc main_arg9) :=
  (W4_of_ne m ρ c main_arg9 (by decide)).trans ((ops1_arg9 (W2 m ρ c)).trans
    ((W2_of_ne m ρ c main_arg9 (by decide)).trans (ops0_arg9 (W0 m ρ c))))

/-- The result buffer after the last stretch. -/
theorem W5_v44 (hp0 : Reg0.PayAt) (hp1 : Reg1.PayAt) (c : Dev nD) :
    W5 m ρ c (Proc.devRef .tc main_v44) = tailV (column m c) (m ((c : Thread nD τ).loc main_arg9)) := by
  refine (ops2_v44 (W4 m ρ c)).trans ?_
  rw [W4_v40 m ρ hp0 hp1 c, W4_arg9 m ρ c]

/-- The program's run: every weakly fair execution terminates with the result at that function of the arguments and
    the arguments unchanged. -/
theorem run (hp0 : Reg0.PayAt) (hp1 : Reg1.PayAt) :
    θ_run defs (onTc (τ := τ) (main (F := Ideal))) ⟨m, fun _ => 0, ρ⟩ (fun r => ∀ c : Dev nD,
      r.2.mem ((c.tc : Thread nD τ).loc main_v44) = tailV (column m c) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W5_v44 m ρ hp0 hp1 c), (h c).2⟩)
    (Cert.KernelIdeal.GenP.run_named m ρ)

end Cert.Sage.KV

end
-- ==== Proof.RefLayers.lean ====
/-
  The reference program's stages, read as the functions of the specification.

  Each of the two layers of the reference divides the rows of neighbour sums by the neighbour count clamped below
  by one, contracts the quotient with a weight matrix, adds a bias row, adds the contraction of the layer's own
  input with a second weight matrix and clamps at zero.  The specification multiplies the sums by the reciprocal
  of the clamped count instead of dividing; as the clamped count is never zero the two agree.  The last stages
  contract each row of the second layer with a weight column and add a scalar bias.
-/
import proofs.«169117_j77171972374887_2_alg».proof.Proof.Gen.ReferenceIdeal.Read
import proofs.«169117_j77171972374887_2_alg».proof.Proof.Spec

noncomputable section

namespace Cert.Sage.Ref

open Cert.ReferenceIdeal Cert.ReferenceIdeal.Gen Cert.ReferenceIdeal.Read Idealize.ShloMosaic Idealize.ShloMosaic.ValueIdx

/-- The contents of a 50000 × 128 buffer of extended reals. -/
abbrev M50000x128 := (⟨S50000x128, .f32⟩ : BufTy).Contents (Elt Ideal)
/-- The contents of the 2 × 800000 buffer of edge endpoints. -/
abbrev E2x800000 := (⟨S2x800000, .i32⟩ : BufTy).Contents (Elt Ideal)
/-- The contents of a 128 × 128 weight matrix. -/
abbrev M128x128 := (⟨S128x128, .f32⟩ : BufTy).Contents (Elt Ideal)
/-- The contents of a bias row of 128 lanes. -/
abbrev V128 := (⟨S128, .f32⟩ : BufTy).Contents (Elt Ideal)
/-- The contents of the 128 × 1 column of output weights. -/
abbrev M128x1 := (⟨S128x1, .f32⟩ : BufTy).Contents (Elt Ideal)
/-- The contents of the one-element output bias. -/
abbrev V1 := (⟨S1, .f32⟩ : BufTy).Contents (Elt Ideal)

/-- A layer of the specification at row `r` and lane `q`, written out. -/
theorem layer_apply (sums : (⟨2, ![50000, 128]⟩ : Shape).Idx → EReal) (iv : Fin 50000 → EReal)
    (x : (⟨2, ![50000, 128]⟩ : Shape).Idx → EReal) (Wl : (⟨2, ![128, 128]⟩ : Shape).Idx → EReal) (b : Fin 128 → EReal)
    (Wr : (⟨2, ![128, 128]⟩ : Shape).Idx → EReal) (r : Fin 50000) (q : Fin 128) :
    Cert.Sage.layer sums iv x Wl b Wr (ix2 r q)
      = max (((∑ k : Fin 128, (sums (ix2 r k) * iv r) * Wl (ix2 k q)) + b q) + ∑ k : Fin 128, x (ix2 r k) * Wr (ix2 k q)) 0 :=
  rfl

/-- The divisor of the first layer, a count clamped below by one, is not zero. -/
theorem cnt1_ne_zero (x1 : E2x800000) (j : S50000x1.Idx) : val_main_v19 (F := Ideal) x1 j ≠ 0 := by
  rw [val_main_v19_apply, val_main_v18_apply, val_main_cst_3_apply]
  simp only [Ideal.maximumf_def, Ideal.ofBits_def, Cert.Sage.ofBits_one_f32]
  exact Cert.Sage.max_one_ne_zero _

/-- The first layer's mean: the quotient of a sum by the clamped count is the sum times the count's reciprocal. -/
theorem mean1_apply (x0 : M50000x128) (x1 : E2x800000) (r : Fin 50000) (k : Fin 128) :
    val_main_v21 (F := Ideal) x0 x1 (ix2 r k)
      = val_main_v13 (F := Ideal) x0 x1 (ix2 r k) * Ideal.div 1 (val_main_v19 (F := Ideal) x1 (ix2 r 0)) := by
  have hc : idx_main_v20 (ix2 r k) = ix2 r 0 := funext fun a => by
    match a with
    | ⟨0, _⟩ => rfl
    | ⟨1, _⟩ => rfl
  rw [val_main_v21_apply, val_main_v20_apply, hc]
  exact (Cert.Sage.mul_div_one _ _ (cnt1_ne_zero x1 _)).symm

/-- The first layer's contraction of the mean with the left weights. -/
theorem dotl1_apply (x0 : M50000x128) (x1 : E2x800000) (x2 : M128x128) (r : Fin 50000) (q : Fin 128) :
    val_main_v22 (F := Ideal) x0 x1 x2 (ix2 r q)
      = ∑ k : Fin 128, (val_main_v13 (F := Ideal) x0 x1 (ix2 r k) * Ideal.div 1 (val_main_v19 (F := Ideal) x1 (ix2 r 0))) * x2 (ix2 k q) := by
  rw [val_main_v22_apply]
  refine Finset.sum_congr rfl fun k _ => ?_
  have hl : lidx_main_v22 (ix2 r q) k = ix2 r k := funext fun a => by
    match a with
    | ⟨0, _⟩ => rfl
    | ⟨1, _⟩ => rfl
  have hr : ridx_main_v22 (ix2 r q) k = ix2 k q := funext fun a => by
    match a with
    | ⟨0, _⟩ => rfl
    | ⟨1, _⟩ => rfl
  rw [hl, hr, mean1_apply]

/-- The first layer's contraction of the row's own features with the right weights. -/
theorem dotr1_apply (x0 : M50000x128) (x4 : M128x128) (r : Fin 50000) (q : Fin 128) :
    val_main_v26 (F := Ideal) x0 x4 (ix2 r q) = ∑ k : Fin 128, x0 (ix2 r k) * x4 (ix2 k q) := by
  rw [val_main_v26_apply]
  refine Finset.sum_congr rfl fun k _ => ?_
  have hl : lidx_main_v26 (ix2 r q) k = ix2 r k := funext fun a => by
    match a with
    | ⟨0, _⟩ => rfl
    | ⟨1, _⟩ => rfl
  have hr : ridx_main_v26 (ix2 r q) k = ix2 k q := funext fun a => by
    match a with
    | ⟨0, _⟩ => rfl
    | ⟨1, _⟩ => rfl
  rw [hl, hr]

/-- The first layer's bias, broadcast over the rows. -/
theorem bias1_apply (x3 : V128) (r : Fin 50000) (q : Fin 128) :
    val_main_v24 (F := Ideal) x3 (ix2 r q) = x3 (ix1 q) := by
  have hb : idx_main_v23 (idx_main_v24 (ix2 r q)) = ix1 q := funext fun a => by
    match a with
    | ⟨0, _⟩ => rfl
  rw [val_main_v24_apply, val_main_v23_apply, hb]

/-- The first clamp's lower bound is zero. -/
theorem zero1_apply (i : S50000x128.Idx) : val_main_call0_v0 (F := Ideal) i = 0 := by
  rw [val_main_call0_v0_apply, val_main_call0_cst_apply]
  exact Ideal.ofBits_zero_f32

theorem ref_layer1 (x0 : M50000x128) (x1 : E2x800000) (x2 : M128x128) (x3 : V128) (x4 : M128x128) :
    val_main_v28 (F := Ideal) x0 x1 x2 x3 x4
      = Cert.Sage.layer (val_main_v13 (F := Ideal) x0 x1) (fun r => Ideal.div 1 (val_main_v19 (F := Ideal) x1 (ix2 r 0))) x0 x2 (fun q => x3 (ix1 q)) x4 := by
  funext i
  obtain ⟨r, q, rfl⟩ : ∃ (r : Fin 50000) (q : Fin 128), i = ix2 r q := ⟨i 0, i 1, eq_ix2 i⟩
  rw [layer_apply, val_main_v28_apply, val_main_v27_apply, val_main_v25_apply, dotl1_apply, dotr1_apply, bias1_apply,
    zero1_apply]
  rfl

/-- The head of the specification at row `r`: the contraction of the layer's row with the output weights. -/
theorem head_apply (sums : (⟨2, ![50000, 128]⟩ : Shape).Idx → EReal) (iv : Fin 50000 → EReal)
    (x : (⟨2, ![50000, 128]⟩ : Shape).Idx → EReal) (Wl : (⟨2, ![128, 128]⟩ : Shape).Idx → EReal) (b : Fin 128 → EReal)
    (Wr : (⟨2, ![128, 128]⟩ : Shape).Idx → EReal) (wo : Fin 128 → EReal) (r : Fin 50000) (c : Fin 1) :
    Cert.Sage.head sums iv x Wl b Wr wo (ix2 r c)
      = ∑ q : Fin 128, Cert.Sage.layer sums iv x Wl b Wr (ix2 r q) * wo q :=
  rfl

/-- The divisor of the second layer, a count clamped below by one, is not zero. -/
theorem cnt2_ne_zero (x1 : E2x800000) (j : S50000x1.Idx) : val_main_v44 (F := Ideal) x1 j ≠ 0 := by
  rw [val_main_v44_apply, val_main_v43_apply, val_main_cst_9_apply]
  simp only [Ideal.maximumf_def, Ideal.ofBits_def, Cert.Sage.ofBits_one_f32]
  exact Cert.Sage.max_one_ne_zero _

/-- The second layer's mean: the quotient of a sum by the clamped count is the sum times the count's reciprocal. -/
theorem mean2_apply (x0 : M50000x128) (x1 : E2x800000) (x2 : M128x128) (x3 : V128) (x4 : M128x128) (r : Fin 50000)
    (k : Fin 128) :
    val_main_v46 (F := Ideal) x0 x1 x2 x3 x4 (ix2 r k)
      = val_main_v38 (F := Ideal) x0 x1 x2 x3 x4 (ix2 r k) * Ideal.div 1 (val_main_v44 (F := Ideal) x1 (ix2 r 0)) := by
  have hc : idx_main_v45 (ix2 r k) = ix2 r 0 := funext fun a => by
    match a with
    | ⟨0, _⟩ => rfl
    | ⟨1, _⟩ => rfl
  rw [val_main_v46_apply, val_main_v45_apply, hc]
  exact (Cert.Sage.mul_div_one _ _ (cnt2_ne_zero x1 _)).symm

/-- The second layer's contraction of the mean with the left weights. -/
theorem dotl2_apply (x0 : M50000x128) (x1 : E2x800000) (x2 : M128x128) (x3 : V128) (x4 x5 : M128x128) (r : Fin 50000)
    (q : Fin 128) :
    val_main_v47 (F := Ideal) x0 x1 x2 x3 x4 x5 (ix2 r q)
      = ∑ k : Fin 128, (val_main_v38 (F := Ideal) x0 x1 x2 x3 x4 (ix2 r k)
          * Ideal.div 1 (val_main_v44 (F := Ideal) x1 (ix2 r 0))) * x5 (ix2 k q) := by
  rw [val_main_v47_apply]
  refine Finset.sum_congr rfl fun k _ => ?_
  have hl : lidx_main_v47 (ix2 r q) k = ix2 r k := funext fun a => by
    match a with
    | ⟨0, _⟩ => rfl
    | ⟨1, _⟩ => rfl
  have hr : ridx_main_v47 (ix2 r q) k = ix2 k q := funext fun a => by
    match a with
    | ⟨0, _⟩ => rfl
    | ⟨1, _⟩ => rfl
  rw [hl, hr, mean2_apply]

/-- The second layer's contraction of the first layer's row with the right weights. -/
theorem dotr2_apply (x0 : M50000x128) (x1 : E2x800000) (x2 : M128x128) (x3 : V128) (x4 x7 : M128x128) (r : Fin 50000)
    (q : Fin 128) :
    val_main_v51 (F := Ideal) x0 x1 x2 x3 x4 x7 (ix2 r q)
      = ∑ k : Fin 128, val_main_v28 (F := Ideal) x0 x1 x2 x3 x4 (ix2 r k) * x7 (ix2 k q) := by
  rw [val_main_v51_apply]
  refine Finset.sum_congr rfl fun k _ => ?_
  have hl : lidx_main_v51 (ix2 r q) k = ix2 r k := funext fun a => by
    match a with
    | ⟨0, _⟩ => rfl
    | ⟨1, _⟩ => rfl
  have hr : ridx_main_v51 (ix2 r q) k = ix2 k q := funext fun a => by
    match a with
    | ⟨0, _⟩ => rfl
    | ⟨1, _⟩ => rfl
  rw [hl, hr]

/-- The second layer's bias, broadcast over the rows. -/
theorem bias2_apply (x6 : V128) (r : Fin 50000) (q : Fin 128) :
    val_main_v49 (F := Ideal) x6 (ix2 r q) = x6 (ix1 q) := by
  have hb : idx_main_v48 (idx_main_v49 (ix2 r q)) = ix1 q := funext fun a => by
    match a with
    | ⟨0, _⟩ => rfl
  rw [val_main_v49_apply, val_main_v48_apply, hb]

/-- The second clamp's lower bound is zero. -/
theorem zero2_apply (i : S50000x128.Idx) : val_main_call1_v0 (F := Ideal) i = 0 := by
  rw [val_main_call1_v0_apply, val_main_call1_cst_apply]
  exact Ideal.ofBits_zero_f32

/-- The reference's second layer is the specification's layer of the second neighbour sums, the reciprocal of the
    second clamped count and the first layer's result. -/
theorem ref_layer2 (x0 : M50000x128) (x1 : E2x800000) (x2 : M128x128) (x3 : V128) (x4 x5 : M128x128) (x6 : V128)
    (x7 : M128x128) :
    val_main_v53 (F := Ideal) x0 x1 x2 x3 x4 x5 x6 x7
      = Cert.Sage.layer (val_main_v38 (F := Ideal) x0 x1 x2 x3 x4)
          (fun r => Ideal.div 1 (val_main_v44 (F := Ideal) x1 (ix2 r 0)))
          (val_main_v28 (F := Ideal) x0 x1 x2 x3 x4) x5 (fun q => x6 (ix1 q)) x7 := by
  funext i
  obtain ⟨r, q, rfl⟩ : ∃ (r : Fin 50000) (q : Fin 128), i = ix2 r q := ⟨i 0, i 1, eq_ix2 i⟩
  rw [layer_apply, val_main_v53_apply, val_main_v52_apply, val_main_v50_apply, dotl2_apply, dotr2_apply, bias2_apply,
    zero2_apply]
  rfl

/-- The reference's contraction of the second layer with the output weights is the specification's head. -/
theorem ref_head (x0 : M50000x128) (x1 : E2x800000) (x2 : M128x128) (x3 : V128) (x4 x5 : M128x128) (x6 : V128)
    (x7 : M128x128) (x8 : M128x1) :
    val_main_v54 (F := Ideal) x0 x1 x2 x3 x4 x5 x6 x7 x8
      = Cert.Sage.head (val_main_v38 (F := Ideal) x0 x1 x2 x3 x4)
          (fun r => Ideal.div 1 (val_main_v44 (F := Ideal) x1 (ix2 r 0)))
          (val_main_v28 (F := Ideal) x0 x1 x2 x3 x4) x5 (fun q => x6 (ix1 q)) x7 (fun q => x8 (ix2 q 0)) := by
  funext i
  obtain ⟨r, c, rfl⟩ : ∃ (r : Fin 50000) (c : Fin 1), i = ix2 r c := ⟨i 0, i 1, eq_ix2 i⟩
  obtain rfl : c = 0 := Subsingleton.elim c 0
  rw [head_apply, val_main_v54_apply]
  refine Finset.sum_congr rfl fun k _ => ?_
  have hl : lidx_main_v54 (ix2 r (0 : Fin 1)) k = ix2 r k := funext fun a => by
    match a with
    | ⟨0, _⟩ => rfl
    | ⟨1, _⟩ => rfl
  have hr : ridx_main_v54 (ix2 r (0 : Fin 1)) k = ix2 k 0 := funext fun a => by
    match a with
    | ⟨0, _⟩ => rfl
    | ⟨1, _⟩ => rfl
  rw [hl, hr, ref_layer2]

/-- The network's last stage: the per-row number plus the output bias. -/
theorem ref_out (x0 : M50000x128) (x1 : E2x800000) (x2 : M128x128) (x3 : V128) (x4 x5 : M128x128) (x6 : V128)
    (x7 : M128x128) (x8 : M128x1) (x9 : V1) :
    val_main_v58 (F := Ideal) x0 x1 x2 x3 x4 x5 x6 x7 x8 x9
      = Cert.Sage.out (val_main_v54 (F := Ideal) x0 x1 x2 x3 x4 x5 x6 x7 x8) (x9 (ix1 0)) := by
  funext j
  obtain ⟨r, rfl⟩ : ∃ r : Fin 50000, j = ix1 r := ⟨j 0, eq_ix1 j⟩
  have h58 : idx_main_v58 (ix1 r) = ix2 r 0 := funext fun a => by
    match a with
    | ⟨0, _⟩ => exact Fin.ext (Nat.div_one _)
    | ⟨1, _⟩ => rfl
  have h9 : idx_main_v55 (idx_main_v56 (ix2 r 0)) = ix1 0 := funext fun a => by
    match a with
    | ⟨0, _⟩ => rfl
  rw [val_main_v58_apply, h58, val_main_v57_apply, val_main_v56_apply, val_main_v55_apply, h9]
  rfl

end Cert.Sage.Ref

end
-- ==== Proof.Bridge.lean ====
/-
  The idealized kernel program's result and the idealized reference's are one function of the arguments.

  Both programs slice the same edge list, gather with the same start indices and scatter-add onto the same
  destinations, so their neighbour sums and neighbour counts are the same terms (the kernel's change of float format
  before the gather and back after it is the identity on extended reals).  The kernel multiplies the sums by the
  reciprocal `1 / max(cnt, 1)` where the reference divides them by `max(cnt, 1)`; on the extended reals both are the
  product with the inverse of a number that is at least one, hence not zero.  The bias row, the transposed output
  weights and the final unit-axis cast read, at an index, the argument's entry.  With these the kernel's
  `layer` / `head` / `out` and the reference's stages, read as the same specification functions, have equal
  arguments.
-/
import proofs.«169117_j77171972374887_2_alg».proof.Proof.HostTerms
import proofs.«169117_j77171972374887_2_alg».proof.Proof.RefLayers
import Idealize.ShloMosaic.Lib.Pipeline.Value

set_option maxRecDepth 16384

noncomputable section

namespace Cert.Sage.Bridge

open Idealize.ShloMosaic Idealize.ShloMosaic.ValueIdx
open Cert.KernelIdeal Cert.KernelIdeal.Gen Cert.Sage.Host
open Cert.ReferenceIdeal.Read

/-! ## The host terms shared by the two programs -/

/-- The neighbour sums of the input features. -/
theorem agg_eq (a0 : TF) (a1 : TI1) : aggV (dstV a1) (srcV a1) a0 = val_main_v13 (F := Ideal) a0 a1 := rfl

/-- The clamped neighbour counts, as the reference computes them for its first layer … -/
theorem cnt_eq1 (a1 : TI1) : cntV a1 = val_main_v19 (F := Ideal) a1 := rfl
/-- … and again for its second. -/
theorem cnt_eq2 (a1 : TI1) : cntV a1 = val_main_v44 (F := Ideal) a1 := rfl

/-- The neighbour sums of the hidden features. -/
theorem agg_eq2 (a0 : TF) (a1 : TI1) (a2 : TW) (a3 : TB) (a4 : TW) :
    aggV (dstV a1) (srcV a1) (val_main_v28 (F := Ideal) a0 a1 a2 a3 a4) = val_main_v38 (F := Ideal) a0 a1 a2 a3 a4 := rfl

/-! ## The kernel's small layout operations read at an index -/

/-- A broadcast scalar reads the scalar at every row of the column. -/
theorem bc_at (y : (⟨S_, .f32⟩ : BufTy).Contents (Elt Ideal)) (r : Fin 50000) :
    (broadcastInDim S50000x1 ![] bcast_S_S50000x1 y : TC) (ix2 r 0) = y ix0 :=
  broadcastInDim_apply _ bcast_S_S50000x1 y (ix2 r 0) ix0 (fun a => a.elim0)

/-- The broadcast word of 1.0 reads one. -/
theorem one_at (r : Fin 50000) :
    (broadcastInDim S50000x1 ![] bcast_S_S50000x1 (constant (F := Ideal) S_ .f32 0x3F800000#32) : TC) (ix2 r 0) = 1 := by
  rw [bc_at, constant_apply]
  exact Cert.Sage.ofBits_one_f32

/-- A quotient of two columns at an index is the quotient of the entries (stated over variables: the quotient's
    definition tests its divisor against zero, and must never be unfolded on a concrete count). -/
theorem divf_at (o c : FVec Ideal S50000x1 .f32) (j : S50000x1.Idx) : Host.divf (F := Ideal) o c j = Ideal.div (o j) (c j) := rfl

/-- The reciprocal count of a row is one divided by the clamped count. -/
theorem inv_at (a1 : TI1) (r : Fin 50000) : invV a1 (ix2 r 0) = Ideal.div 1 (cntV a1 (ix2 r 0)) := by
  unfold invV
  generalize cntV a1 = c
  rw [divf_at, one_at]

/-- The bias as a one-row matrix reads the bias. -/
theorem bias_at (a3 : TB) (q : Fin 128) : shapeCast S1x128 a3 shapeCasts_S128_S1x128 (ix2 0 q) = a3 (ix1 q) :=
  shapeCast_apply a3 shapeCasts_S128_S1x128 (ix2 0 q) (ix1 q) (by
    rw [Shape.rowMajor_val_two, Shape.rowMajor_val_one]; show q.val = 0 * 128 + q.val; omega)

/-- The transposed column of output weights reads the column. -/
theorem wout_at (a8 : TO) (q : Fin 128) : transpose S1x128 [1, 0] a8 transposes_S128x1_S1x128_1_0 (ix2 0 q) = a8 (ix2 q 0) :=
  transpose_apply [1, 0] a8 transposes_S128x1_S1x128_1_0 (ix2 0 q) (ix2 q 0) (fun b => by
    match b with
    | ⟨0, _⟩ => rfl
    | ⟨1, _⟩ => rfl)

/-- Dropping the column's unit axis and adding the broadcast bias is `out`. -/
theorem tail_eq (o : TC) (a9 : (⟨S1, .f32⟩ : BufTy).Contents (Elt Ideal)) : tailV o a9 = Cert.Sage.out o (a9 (ix1 0)) := by
  funext j
  obtain ⟨r, rfl⟩ : ∃ r : Fin 50000, j = ix1 r := ⟨j 0, eq_ix1 j⟩
  unfold tailV Cert.Sage.out
  show shapeCast S50000 o shapeCasts_S50000x1_S50000 (ix1 r)
      + broadcastInDim S50000 ![] bcast_S_S50000 (shapeCast S_ a9 shapeCasts_S1_S_) (ix1 r) = o (ix2 r 0) + a9 (ix1 0)
  rw [shapeCast_apply o shapeCasts_S50000x1_S50000 (ix1 r) (ix2 r 0) (by
        rw [Shape.rowMajor_val_two, Shape.rowMajor_val_one]; show r.val * 1 + 0 = r.val; omega),
    broadcastInDim_apply _ bcast_S_S50000 _ (ix1 r) ix0 (fun a => a.elim0),
    shapeCast_apply a9 shapeCasts_S1_S_ ix0 (ix1 0) (by
        rw [Shape.rowMajor_val_one]; rfl)]

/-! ## The two programs' results -/

/-- The kernel's hidden features are the reference's. -/
theorem hidden_eq (a0 : TF) (a1 : TI1) (a2 : TW) (a3 : TB) (a4 : TW) :
    hiddenOf a0 a1 a2 a3 a4 = val_main_v28 (F := Ideal) a0 a1 a2 a3 a4 := by
  rw [Cert.Sage.Ref.ref_layer1]
  unfold hiddenOf
  have e1 : (fun r : Fin 50000 => invV a1 (ix2 r 0)) = fun r => Ideal.div 1 (val_main_v19 (F := Ideal) a1 (ix2 r 0)) :=
    funext fun r => (inv_at a1 r).trans (by rw [cnt_eq1])
  have e2 : (fun q : Fin 128 => shapeCast S1x128 a3 shapeCasts_S128_S1x128 (ix2 0 q)) = fun q => a3 (ix1 q) :=
    funext fun q => bias_at a3 q
  rw [e1, e2, agg_eq]

/-- The kernel's output column is the reference's. -/
theorem column_eq (a0 : TF) (a1 : TI1) (a2 : TW) (a3 : TB) (a4 a5 : TW) (a6 : TB) (a7 : TW) (a8 : TO) :
    columnOf a0 a1 a2 a3 a4 a5 a6 a7 a8 = val_main_v54 (F := Ideal) a0 a1 a2 a3 a4 a5 a6 a7 a8 := by
  rw [Cert.Sage.Ref.ref_head]
  unfold columnOf
  have e1 : (fun r : Fin 50000 => invV a1 (ix2 r 0)) = fun r => Ideal.div 1 (val_main_v44 (F := Ideal) a1 (ix2 r 0)) :=
    funext fun r => (inv_at a1 r).trans (by rw [cnt_eq2])
  have e2 : (fun q : Fin 128 => shapeCast S1x128 a6 shapeCasts_S128_S1x128 (ix2 0 q)) = fun q => a6 (ix1 q) :=
    funext fun q => bias_at a6 q
  have e3 : (fun q : Fin 128 => transpose S1x128 [1, 0] a8 transposes_S128x1_S1x128_1_0 (ix2 0 q)) = fun q => a8 (ix2 q 0) :=
    funext fun q => wout_at a8 q
  rw [e1, e2, e3, hidden_eq, agg_eq2]

/-- The kernel program's result is the reference program's. -/
theorem result_eq (a0 : TF) (a1 : TI1) (a2 : TW) (a3 : TB) (a4 a5 : TW) (a6 : TB) (a7 : TW) (a8 : TO)
    (a9 : (⟨S1, .f32⟩ : BufTy).Contents (Elt Ideal)) :
    tailV (columnOf a0 a1 a2 a3 a4 a5 a6 a7 a8) a9 = val_main_v58 (F := Ideal) a0 a1 a2 a3 a4 a5 a6 a7 a8 a9 := by
  rw [Cert.Sage.Ref.ref_out, tail_eq, column_eq]

end Cert.Sage.Bridge

end
-- ==== Proof.lean ====
/-
  A two-layer mean-aggregation graph network: a kernel program against its reference.

  Both programs compute, for 50000 nodes with 128 features and 800000 edges,
    h   = relu (mean_nbr(x) · W1l + b1l + x · W1r),
    out = relu (mean_nbr(h) · W2l + b2l + h · W2r) · Wout + bout,
  where `mean_nbr(f)` of node `i` is the sum of the rows of `f` at the sources of the edges into `i`, divided by the
  number of those edges clamped below by one.  The kernel program gathers and scatter-adds on the host, as the
  reference does, and runs each layer's dense part as a region over ten blocks of 5000 rows; it multiplies the sums
  by the reciprocal of the clamped count where the reference divides by the clamped count, takes the last
  contraction as a lane sum where the reference takes a matrix product, and adds the output bias after dropping the
  unit axis where the reference adds it before.

  At the ideal values the claim holds for every extended-real input, so the precondition is never opened:
  a quotient by a number that is at least one is the product with its inverse, which is what the reciprocal times
  the sum is as well; sums over the 128 lanes are sums on both sides; format changes are the identity.

  The pieces: what each region leaves in its output array as one function of the arrays it finds (the two region
  modules over the bodies' arithmetic read at an index), the host stretches' results and the program's run with its
  result named (the host-term and kernel-value modules), the reference's stages as the same specification functions,
  and the equality of the two results (the bridge).  The three frames are the generated ones; no operation was
  rewritten by the idealization, so its soundness conjunct is trivial.
-/
import proofs.«169117_j77171972374887_2_alg».proof.Defs
import proofs.«169117_j77171972374887_2_alg».proof.Proof.Gen.Kernel
import proofs.«169117_j77171972374887_2_alg».proof.Proof.Gen.Kernel.Skeleton
import proofs.«169117_j77171972374887_2_alg».proof.Proof.Gen.Kernel.Launch
import proofs.«169117_j77171972374887_2_alg».proof.Proof.Gen.Kernel.Points
import proofs.«169117_j77171972374887_2_alg».proof.Proof.Gen.Kernel.Frame
import proofs.«169117_j77171972374887_2_alg».proof.Proof.Gen.KernelIdeal
import proofs.«169117_j77171972374887_2_alg».proof.Proof.Gen.KernelIdeal.Skeleton
import proofs.«169117_j77171972374887_2_alg».proof.Proof.Gen.KernelIdeal.Launch
import proofs.«169117_j77171972374887_2_alg».proof.Proof.Gen.KernelIdeal.Points
import proofs.«169117_j77171972374887_2_alg».proof.Proof.Gen.KernelIdeal.Frame
import proofs.«169117_j77171972374887_2_alg».proof.Proof.Gen.ReferenceIdeal
import proofs.«169117_j77171972374887_2_alg».proof.Proof.Gen.Pre_finite_inputs
import proofs.«169117_j77171972374887_2_alg».proof.Proof.Gen.ReferenceIdeal.Run
import proofs.«169117_j77171972374887_2_alg».proof.Proof.Gen.ReferenceIdeal.Read
import proofs.«169117_j77171972374887_2_alg».proof.Proof.Payload
import proofs.«169117_j77171972374887_2_alg».proof.Proof.KernelValue
import proofs.«169117_j77171972374887_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel program's result array ends at the output bias added to the second region's
    column (the kernel's run, read back) and the reference's at its last stage of arguments that agree: one
    function of the arguments. -/
theorem algebraic : Cert.algebraic_KernelIdeal_ReferenceIdeal := by
  intro m ρ m' ρ' _ hagree
  refine ⟨fun c => Cert.Sage.Host.tailV (Cert.Sage.KV.column m c)
      (m ((c.tc : Thread Cert.KernelIdeal.nD Cert.KernelIdeal.τ).loc Cert.KernelIdeal.main_arg9)),
    Cert.Sage.KV.run m ρ Cert.Sage.Pay.pay0_at Cert.Sage.Pay.pay1_at, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq]
  obtain ⟨h0, h1, h2, h3, h4, h5, h6, h7, h8, h9⟩ := hagree c
  rw [h0, h1, h2, h3, h4, h5, h6, h7, h8, h9]
  exact (Cert.Sage.Bridge.result_eq _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
